-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x165 : Shape := ⟨2, ![50000, 165]⟩
abbrev S2x800000 : Shape := ⟨2, ![2, 800000]⟩
abbrev S165x256 : Shape := ⟨2, ![165, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x165 : S_.BroadcastsInDim S50000x165 (![] : Fin 0 → Fin S50000x165.rank)
  reducesTo_S50000x165_S_d0_1 : S50000x165.ReducesTo [0, 1] S_
  h_S_ : 0 < S_.numel
  bcast_S_S165x256 : S_.BroadcastsInDim S165x256 (![] : Fin 0 → Fin S165x256.rank)
  reducesTo_S165x256_S_d0_1 : S165x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S256x2 .f32) (main_arg9 : FVec F S2 .f32) (main_v33 : IVec S_ 1) : IVec S_ 1 :=
  let main_v34 : FVec F S256x2 .f32 := Host.absf main_arg8
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x2 .f32) (main_arg9 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x165 .f32) (main_arg1 : IVec S2x800000 32) (main_arg2 : FVec F S165x256 .f32) (main_arg3 : FVec F S256 .f32) (main_arg4 : FVec F S256x256 .f32) (main_arg5 : FVec F S256 .f32) (main_arg6 : FVec F S256x256 .f32) (main_arg7 : FVec F S256 .f32) (main_arg8 : FVec F S256x2 .f32) (main_arg9 : FVec F S2 .f32) : IVec S_ 1 :=
  let main_v0 : FVec F S50000x165 .f32 := Host.absf main_arg0
  let main_cst : FVec F S_ .f32 := constant S_ .f32 0x7F800000#32
  let main_v1 : FVec F S50000x165 .f32 := broadcastInDim S50000x165 ![] bcast_S_S50000x165 main_cst
  let main_v2 : IVec S50000x165 1 := cmpf .olt main_v0 main_v1
  let main_c : IVec S_ 1 := constantI S_ 1 1#1
  let main_v3 : IVec S_ 1 := (fun x v => Host.reduce IntOp.andi x v reducesTo_S50000x165_S_d0_1 h_S_) main_v2 main_c
  let main_v4 : FVec F S165x256 .f32 := Host.absf main_arg2
  let main_cst_0 : FVec F S_ .f32 := constant S_ .f32 0x7F800000#32
  let main_v5 : FVec F S165x256 .f32 := broadcastInDim S165x256 ![] bcast_S_S165x256 main_cst_0
  let main_v6 : IVec S165x256 1 := cmpf .olt main_v4 main_v5
  let main_c_1 : IVec S_ 1 := constantI S_ 1 1#1
  let main_v7 : IVec S_ 1 := (fun x v => Host.reduce IntOp.andi x v reducesTo_S165x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x165 : Shape := ⟨2, ![50000, 165]⟩
abbrev S2x800000 : Shape := ⟨2, ![2, 800000]⟩
abbrev S165x256 : Shape := ⟨2, ![165, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x165 : Shape := ⟨2, ![800000, 165]⟩
abbrev S1x256 : Shape := ⟨2, ![1, 256]⟩
abbrev S50000x256 : Shape := ⟨2, ![50000, 256]⟩
abbrev S2000x165 : Shape := ⟨2, ![2000, 165]⟩
abbrev S2000x256 : Shape := ⟨2, ![2000, 256]⟩
abbrev S800000x256 : Shape := ⟨2, ![800000, 256]⟩
abbrev S256x128 : Shape := ⟨2, ![256, 128]⟩
abbrev S128 : Shape := ⟨1, ![128]⟩
abbrev S1x128 : Shape := ⟨2, ![1, 128]⟩
abbrev S50000x128 : Shape := ⟨2, ![50000, 128]⟩
abbrev S2000x128 : Shape := ⟨2, ![2000, 128]⟩
abbrev S50000x2 : Shape := ⟨2, ![50000, 2]⟩

abbrev nBuf : Space → Nat
  | .hbm => 55
  | .vmem => 20
  | .smem => 0
  | _ => 0

abbrev bufTy : (tb : Table) → Fin (tcTables nBuf tb) → BufTy
  | .hbm, ⟨0, _⟩ => ⟨S50000x165, .f32⟩
  | .hbm, ⟨1, _⟩ => ⟨S2x800000, .i32⟩
  | .hbm, ⟨2, _⟩ => ⟨S165x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x2, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x165, .f32⟩
  | .hbm, ⟨23, _⟩ => ⟨S_, .f32⟩
  | .hbm, ⟨24, _⟩ => ⟨S50000x165, .f32⟩
  | .hbm, ⟨25, _⟩ => ⟨S800000x1, .i32⟩
  | .hbm, ⟨26, _⟩ => ⟨S50000x165, .f32⟩
  | .hbm, ⟨27, _⟩ => ⟨S1x256, .f32⟩
  | .hbm, ⟨28, _⟩ => ⟨S1x256, .f32⟩
  | .hbm, ⟨29, _⟩ => ⟨S50000x256, .f32⟩
  | .hbm, ⟨30, _⟩ => ⟨S50000x256, .bf16⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x256, .bf16⟩
  | .hbm, ⟨40, _⟩ => ⟨S800000x256, .f32⟩
  | .hbm, ⟨41, _⟩ => ⟨S_, .f32⟩
  | .hbm, ⟨42, _⟩ => ⟨S50000x256, .f32⟩
  | .hbm, ⟨43, _⟩ => ⟨S800000x1, .i32⟩
  | .hbm, ⟨44, _⟩ => ⟨S50000x256, .f32⟩
  | .hbm, ⟨45, _⟩ => ⟨S_, .i32⟩
  | .hbm, ⟨46, _⟩ => ⟨S_, .f32⟩
  | .hbm, ⟨47, _⟩ => ⟨S256x128, .f32⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S1x256, .f32⟩
  | .hbm, ⟨52, _⟩ => ⟨S1x128, .f32⟩
  | .hbm, ⟨53, _⟩ => ⟨S50000x128, .f32⟩
  | .hbm, ⟨54, _⟩ => ⟨S50000x2, .f32⟩
  | .local _ .vmem, ⟨0, _⟩ => ⟨S2000x165, .f32⟩
  | .local _ .vmem, ⟨1, _⟩ => ⟨S2000x165, .f32⟩
  | .local _ .vmem, ⟨2, _⟩ => ⟨S2000x165, .f32⟩
  | .local _ .vmem, ⟨3, _⟩ => ⟨S2000x165, .f32⟩
  | .local _ .vmem, ⟨4, _⟩ => ⟨S165x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .bf16⟩
  | .local _ .vmem, ⟨11, _⟩ => ⟨S2000x256, .bf16⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S256x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_call0_v0 : Ref sig .tc := ⟨.hbm, 46, rfl⟩
abbrev main_v29 : Ref sig .tc := ⟨.hbm, 47, rfl⟩
abbrev main_c_5 : Ref sig .tc := ⟨.hbm, 48, rfl⟩
abbrev main_call1_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x165 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S165x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x165 : S_.BroadcastsInDim S50000x165 (![] : Fin 0 → Fin S50000x165.rank)
  shapeCasts_S256_S1x256 : S256.ShapeCasts S1x256
  inb_S2000x165_S2000x165_0_0 : ∀ a, (![0, 0] : Fin 2 → Nat) a + S2000x165.size a ≤ S2000x165.size a
  h_S2000x165 : 0 < S2000x165.numel
  shapeCasts_S2000x165_S2000x165 : S2000x165.ShapeCasts S2000x165
  bitsLt_bf16_f32 : FTy.bits .bf16 < FTy.bits .f32
  inb_S165x256_S165x256_0_0 : ∀ a, (![0, 0] : Fin 2 → Nat) a + S165x256.size a ≤ S165x256.size a
  h_S165x256 : 0 < S165x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  pads_S256x2_S256x128_000_01260 : S256x2.Pads (![0, 0] : Fin 2 → Nat) ![0, 126] ![0, 0] S256x128
  h_S_ : 0 < S_.numel
  pads_S2_S128_01260 : S2.Pads (![0] : Fin 1 → Nat) ![126] ![0] S128
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S50000x128_S50000x2_0_0 : S50000x128.Slices ![0, 0] S50000x2
  gather_S50000x165_S800000x1_S800000x165_1_0_n_n_0_1_1165_wf : GatherDims.WF S50000x165 S800000x1 S800000x165 [1] [0] [] [0] [] 1 ![1, 165]
  scatter_S50000x165_S800000x1_S800000x165_1_0_0_1_wf : ScatterDims.WF S50000x165 S800000x1 S800000x165 [1] [0] [0] 1
  dot_S2000x165_S165x256_S2000x256_1_0_0_1_n_n_wf : DotDims.WF S2000x165 S165x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x165.size a ≤ S50000x165.size a
  hwx0_0 : ∀ i : grid0.Coords, EltTy.bits .f32 = 32 ∨ (Rect.block (s := S50000x165) S2000x165.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x165.size a ≤ S50000x165.size a
  hwx0_1 : ∀ i : grid0.Coords, EltTy.bits .f32 = 32 ∨ (Rect.block (s := S50000x165) S2000x165.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S165x256.size a ≤ S165x256.size a
  hwx0_2 : ∀ i : grid0.Coords, EltTy.bits .f32 = 32 ∨ (Rect.block (s := S165x256) S165x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x165_S800000x1_S800000x165_1_0_n_n_0_1_1165 : GatherDims S50000x165 S800000x1 S800000x165 where
  offsetDims := [1]
  collapsedSliceDims := [0]
  operandBatchingDims := []
  startIndicesBatchingDims := []
  startIndexMap := [0]
  indexVectorDim := 1
  sliceSizes := ![1, 165]
  wf := gather_S50000x165_S800000x1_S800000x165_1_0_n_n_0_1_1165_wf
def scatter_S50000x165_S800000x1_S800000x165_1_0_0_1 : ScatterDims S50000x165 S800000x1 S800000x165 where
  updateWindowDims := [1]
  insertedWindowDims := [0]
  scatterDimsToOperandDims := [0]
  indexVectorDim := 1
  wf := scatter_S50000x165_S800000x1_S800000x165_1_0_0_1_wf
def dot_S2000x165_S165x256_S2000x256_1_0_0_1_n_n : DotDims S2000x165 S165x256 S2000x256 where
  lhsContracting := [1]
  rhsContracting := [0]
  lhsNonContracting := [0]
  rhsNonContracting := [1]
  lhsBatch := []
  rhsBatch := []
  wf := dot_S2000x165_S165x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x165.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S165x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x165 : Shape := ⟨2, ![50000, 165]⟩
abbrev S2x800000 : Shape := ⟨2, ![2, 800000]⟩
abbrev S165x256 : Shape := ⟨2, ![165, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x165 : Shape := ⟨2, ![800000, 165]⟩
abbrev S50000x256 : Shape := ⟨2, ![50000, 256]⟩
abbrev S1x256 : Shape := ⟨2, ![1, 256]⟩
abbrev S800000x256 : Shape := ⟨2, ![800000, 256]⟩
abbrev S50000x2 : Shape := ⟨2, ![50000, 2]⟩
abbrev S1x2 : Shape := ⟨2, ![1, 2]⟩

abbrev nBuf : Space → Nat
  | .hbm => 67
  | .vmem => 0
  | .smem => 0
  | _ => 0

abbrev bufTy : (tb : Table) → Fin (tcTables nBuf tb) → BufTy
  | .hbm, ⟨0, _⟩ => ⟨S50000x165, .f32⟩
  | .hbm, ⟨1, _⟩ => ⟨S2x800000, .i32⟩
  | .hbm, ⟨2, _⟩ => ⟨S165x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x2, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x165, .f32⟩
  | .hbm, ⟨23, _⟩ => ⟨S_, .f32⟩
  | .hbm, ⟨24, _⟩ => ⟨S50000x165, .f32⟩
  | .hbm, ⟨25, _⟩ => ⟨S800000x1, .i32⟩
  | .hbm, ⟨26, _⟩ => ⟨S50000x165, .f32⟩
  | .hbm, ⟨27, _⟩ => ⟨S50000x165, .f32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S_, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S50000x256, .f32⟩
  | .hbm, ⟨62, _⟩ => ⟨S50000x256, .f32⟩
  | .hbm, ⟨63, _⟩ => ⟨S50000x2, .f32⟩
  | .hbm, ⟨64, _⟩ => ⟨S1x2, .f32⟩
  | .hbm, ⟨65, _⟩ => ⟨S50000x2, .f32⟩
  | .hbm, ⟨66, _⟩ => ⟨S50000x2, .f32⟩
  | _, _ => ⟨S50000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x165 : S_.BroadcastsInDim S50000x165 (![] : Fin 0 → Fin S50000x165.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x165_S800000x1_S800000x165_1_0_n_n_0_1_1165_wf : GatherDims.WF S50000x165 S800000x1 S800000x165 [1] [0] [] [0] [] 1 ![1, 165]
  scatter_S50000x165_S800000x1_S800000x165_1_0_0_1_wf : ScatterDims.WF S50000x165 S800000x1 S800000x165 [1] [0] [0] 1
  dot_S50000x165_S165x256_S50000x256_1_0_0_1_n_n_wf : DotDims.WF S50000x165 S165x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x2_S50000x2_1_0_0_1_n_n_wf : DotDims.WF S50000x256 S256x2 S50000x2 [1] [0] [0] [1] [] []

variable [Facts₀]

def gather_S50000x165_S800000x1_S800000x165_1_0_n_n_0_1_1165 : GatherDims S50000x165 S800000x1 S800000x165 where
  offsetDims := [1]
  collapsedSliceDims := [0]
  operandBatchingDims := []
  startIndicesBatchingDims := []
  startIndexMap := [0]
  indexVectorDim := 1
  sliceSizes := ![1, 165]
  wf := gather_S50000x165_S800000x1_S800000x165_1_0_n_n_0_1_1165_wf
def scatter_S50000x165_S800000x1_S800000x165_1_0_0_1 : ScatterDims S50000x165 S800000x1 S800000x165 where
  updateWindowDims := [1]
  insertedWindowDims := [0]
  scatterDimsToOperandDims := [0]
  indexVectorDim := 1
  wf := scatter_S50000x165_S800000x1_S800000x165_1_0_0_1_wf
def dot_S50000x165_S165x256_S50000x256_1_0_0_1_n_n : DotDims S50000x165 S165x256 S50000x256 where
  lhsContracting := [1]
  rhsContracting := [0]
  lhsNonContracting := [0]
  rhsNonContracting := [1]
  lhsBatch := []
  rhsBatch := []
  wf := dot_S50000x165_S165x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KernelRun.lean ====
/-
  The idealized kernel's run with its final memory named.

  @main is nine segments: a stretch of host operations, the first pallas_call, five stretches of host operations (the
  two calls of the padding function are stretches of their own), the second pallas_call, and the final slice.  The
  contents of every buffer at each boundary are a fold through these segments from the launch memory; the last one,
  `Gen.W9`, is what every unscoped buffer holds when @main returns.  The run below states exactly that: every weakly
  fair execution terminates and every unscoped buffer ends at `Gen.W9`.  The frame claim keeps only the argument
  buffers of this; the value claim also reads the result buffer.
-/
import proofs.«168716_j1812476199284_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run, reading the result buffer and the ten argument buffers: the result at the last boundary's contents,
    the arguments as launched. -/
theorem run : θ_run defs (onTc (τ := τ) (main (F := F))) ⟨m, fun _ => 0, ρ⟩ (fun r => ∀ c : Dev nD,
      r.2.mem ((c.tc : Thread nD τ).loc main_v34) = W9 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v34 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)
    (run_final m ρ)

end Cert.KernelIdeal.Run

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibPerceptron.lean ====
/-
  The two-layer perceptron of a graph-isomorphism convolution, on the extended reals.

  A node's row z (its features plus the sum of its in-neighbours' features) goes through a first affine map
  z·Wa + ba, the rectifier max(·, 0), and a second affine map ·Wb + bb.  One ENTRY of the result, at a node and an
  output channel, reads the node's row, the whole first layer, and only the channel's column of Wb and entry of bb:

      entry z Wa ba wb bb = (Σ_k max((Σ_l z_l · Wa_{l,k}) + ba_k, 0) · wb_k) + bb.

  Both programs compute exactly this nest of sums, so nothing here needs finiteness: no sum is split, no factor moved.
  The zero the rectifier compares against is kept as the float word 0x00000000 read as an extended real; it is the
  same word in both programs and is never evaluated.
-/
import Idealize.ShloMosaic.PureOps.Ideal
import Idealize.ShloMosaic.Lib.ValueIdx

noncomputable section

namespace Cert.Perceptron

open Idealize.ShloMosaic Idealize.ShloMosaic.ValueIdx

/-- The rectifier's threshold: the word of +0.0 as an extended real. -/
abbrev zero : EReal := Ideal.ofBits .f32 0x00000000#32

/-- One entry of the two-layer perceptron: the row `z` through the first layer `Wa`, `ba` and the rectifier, then
    against the column `wb` of the second layer, plus its bias entry `bb`. -/
def entry {K H : ℕ} (z : Fin K → EReal) (Wa : Fin K → Fin H → EReal) (ba : Fin H → EReal) (wb : Fin H → EReal)
    (bb : EReal) : EReal :=
  (∑ k : Fin H, max ((∑ l : Fin K, z l * Wa l k) + ba k) zero * wb k) + bb

/-- A bias vector of n entries as the 1 × n row both programs spread over the nodes. -/
def row {n : ℕ} (b : (⟨1, ![n]⟩ : Shape).Idx → EReal) : (⟨2, ![1, n]⟩ : Shape).Idx → EReal := fun i => b (ix1 (i 1))

theorem row_apply {n : ℕ} (b : (⟨1, ![n]⟩ : Shape).Idx → EReal) (u : Fin 1) (k : Fin n) : row b (ix2 u k) = b (ix1 k) := rfl

/-- The perceptron over arrays: node features `X` and aggregated neighbour features `A` (both N × K), the first layer
    `Wa` (K × H) with bias `ba` as a 1 × H row, the second layer `Wb` (H × C) with bias `bb` as a 1 × C row; the entry at
    node `r` and channel `c`. -/
def layer {N K H C : ℕ} (X A : (⟨2, ![N, K]⟩ : Shape).Idx → EReal) (Wa : (⟨2, ![K, H]⟩ : Shape).Idx → EReal)
    (ba : (⟨2, ![1, H]⟩ : Shape).Idx → EReal) (Wb : (⟨2, ![H, C]⟩ : Shape).Idx → EReal)
    (bb : (⟨2, ![1, C]⟩ : Shape).Idx → EReal) (r : Fin N) (c : Fin C) : EReal :=
  entry (fun l => X (ix2 r l) + A (ix2 r l)) (fun l k => Wa (ix2 l k)) (fun k => ba (ix2 (0 : Fin 1) k))
    (fun k => Wb (ix2 k c)) (bb (ix2 (0 : Fin 1) c))

/-- The first convolution's result as an array: the perceptron followed by the rectifier that feeds the second
    convolution. -/
def hidden {N K H C : ℕ} (X A : (⟨2, ![N, K]⟩ : Shape).Idx → EReal) (Wa : (⟨2, ![K, H]⟩ : Shape).Idx → EReal)
    (ba : (⟨2, ![1, H]⟩ : Shape).Idx → EReal) (Wb : (⟨2, ![H, C]⟩ : Shape).Idx → EReal)
    (bb : (⟨2, ![1, C]⟩ : Shape).Idx → EReal) : (⟨2, ![N, C]⟩ : Shape).Idx → EReal :=
  fun i => max (layer X A Wa ba Wb bb (i 0) (i 1)) zero

/-- The second convolution's result as an array: the perceptron, no rectifier after it. -/
def out {N K H C : ℕ} (X A : (⟨2, ![N, K]⟩ : Shape).Idx → EReal) (Wa : (⟨2, ![K, H]⟩ : Shape).Idx → EReal)
    (ba : (⟨2, ![1, H]⟩ : Shape).Idx → EReal) (Wb : (⟨2, ![H, C]⟩ : Shape).Idx → EReal)
    (bb : (⟨2, ![1, C]⟩ : Shape).Idx → EReal) : (⟨2, ![N, C]⟩ : Shape).Idx → EReal :=
  fun i => layer X A Wa ba Wb bb (i 0) (i 1)

theorem hidden_apply {N K H C : ℕ} (X A : (⟨2, ![N, K]⟩ : Shape).Idx → EReal) (Wa : (⟨2, ![K, H]⟩ : Shape).Idx → EReal)
    (ba : (⟨2, ![1, H]⟩ : Shape).Idx → EReal) (Wb : (⟨2, ![H, C]⟩ : Shape).Idx → EReal)
    (bb : (⟨2, ![1, C]⟩ : Shape).Idx → EReal) (r : Fin N) (c : Fin C) :
    hidden X A Wa ba Wb bb (ix2 r c) = max (layer X A Wa ba Wb bb r c) zero := rfl

theorem out_apply {N K H C : ℕ} (X A : (⟨2, ![N, K]⟩ : Shape).Idx → EReal) (Wa : (⟨2, ![K, H]⟩ : Shape).Idx → EReal)
    (ba : (⟨2, ![1, H]⟩ : Shape).Idx → EReal) (Wb : (⟨2, ![H, C]⟩ : Shape).Idx → EReal)
    (bb : (⟨2, ![1, C]⟩ : Shape).Idx → EReal) (r : Fin N) (c : Fin C) :
    out X A Wa ba Wb bb (ix2 r c) = layer X A Wa ba Wb bb r c := rfl

/-- An entry reads only the node's own row of the features and of the aggregate, the whole first layer, and the
    channel's own column of the second layer and entry of its bias.  Arrays that agree there give the same entry: a
    tile of rows against the whole array at the tile's place, a zero-padded second layer against the original at a
    column both have. -/
theorem layer_congr {N N' K H C C' : ℕ} (X A : (⟨2, ![N, K]⟩ : Shape).Idx → EReal)
    (Wa : (⟨2, ![K, H]⟩ : Shape).Idx → EReal) (ba : (⟨2, ![1, H]⟩ : Shape).Idx → EReal)
    (Wb : (⟨2, ![H, C]⟩ : Shape).Idx → EReal) (bb : (⟨2, ![1, C]⟩ : Shape).Idx → EReal)
    (X' A' : (⟨2, ![N', K]⟩ : Shape).Idx → EReal)
    (Wa' : (⟨2, ![K, H]⟩ : Shape).Idx → EReal) (ba' : (⟨2, ![1, H]⟩ : Shape).Idx → EReal)
    (Wb' : (⟨2, ![H, C']⟩ : Shape).Idx → EReal) (bb' : (⟨2, ![1, C']⟩ : Shape).Idx → EReal)
    (r : Fin N) (r' : Fin N') (c : Fin C) (c' : Fin C')
    (hX : ∀ l : Fin K, X (ix2 r l) = X' (ix2 r' l)) (hA : ∀ l : Fin K, A (ix2 r l) = A' (ix2 r' l))
    (hWa : ∀ (l : Fin K) (k : Fin H), Wa (ix2 l k) = Wa' (ix2 l k))
    (hba : ∀ k : Fin H, ba (ix2 (0 : Fin 1) k) = ba' (ix2 (0 : Fin 1) k))
    (hWb : ∀ k : Fin H, Wb (ix2 k c) = Wb' (ix2 k c'))
    (hbb : bb (ix2 (0 : Fin 1) c) = bb' (ix2 (0 : Fin 1) c')) :
    layer X A Wa ba Wb bb r c = layer X' A' Wa' ba' Wb' bb' r' c' := by
  unfold layer
  rw [hbb, show (fun k => Wb (ix2 k c)) = fun k => Wb' (ix2 k c') from funext hWb,
    show (fun k => ba (ix2 (0 : Fin 1) k)) = fun k => ba' (ix2 (0 : Fin 1) k) from funext hba,
    show (fun l k => Wa (ix2 l k)) = fun l k => Wa' (ix2 l k) from funext fun l => funext (hWa l),
    show (fun l => X (ix2 r l) + A (ix2 r l)) = fun l => X' (ix2 r' l) + A' (ix2 r' l) from
      funext fun l => by rw [hX l, hA l]]

end Cert.Perceptron

end
-- ==== Proof.BodyValue.lean ====
/-
  What each kernel body stores, as a function of the six tiles it loads.

  A tile of 2000 nodes is itself an array of node rows, and the body is the perceptron on it: the first body adds the
  feature tile and the aggregate tile, multiplies by the first layer, adds the bias row, rectifies, multiplies by the
  second layer, adds its bias row and rectifies again; the second body does the same without the last rectifier.  The
  roundings to the narrow float format before each product change no value on the extended reals, each product into
  a zero accumulator is the plain sum over the contracted index, and a 1 × H bias row spread over the tile reads, in
  row p, the row itself.  So the stored tile is `Perceptron.hidden` (first body) or `Perceptron.out` (second body)
  of the loaded tiles.
-/
import proofs.«168716_j1812476199284_2_alg».proof.Proof.Gen.KernelIdeal.Skeleton
import proofs.«168716_j1812476199284_2_alg».proof.Proof.LibPlainDot
import proofs.«168716_j1812476199284_2_alg».proof.Proof.LibPerceptron
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.Perceptron

/-- A tile's affine map at an entry: the product into the zero accumulator plus the bias row spread over the tile is
    the sum over the contracted index plus the bias entry of the column. -/
theorem affine_apply {M K N : ℕ} {φ₁ φ₂ : FTy}
    (D : DotDims (⟨2, ![M, K]⟩ : Shape) (⟨2, ![K, N]⟩ : Shape) (⟨2, ![M, N]⟩ : Shape))
    (hrank : D.contr.rank = 1) (hsize : D.contr.size ⟨0, by omega⟩ = K)
    (hlc : D.lhsContracting = [1]) (hrc : D.rhsContracting = [0])
    (hL0 : ∀ j k, (D.lhsIdx j k 0).val = (j 0).val) (hR1 : ∀ j k, (D.rhsIdx j k 1).val = (j 1).val)
    (z : FVec Ideal (⟨2, ![M, K]⟩ : Shape) φ₁) (W : FVec Ideal (⟨2, ![K, N]⟩ : Shape) φ₂)
    (b : FVec Ideal (⟨2, ![1, N]⟩ : Shape) .f32) (hb : (⟨2, ![1, N]⟩ : Shape).Broadcasts ⟨2, ![M, N]⟩)
    (p : Fin M) (c : Fin N) :
    addf (matmul D none z W (constant (⟨2, ![M, N]⟩ : Shape) .f32 0x00000000#32)) (broadcastTo (⟨2, ![M, N]⟩ : Shape) b hb) (ix2 p c)
      = (∑ l : Fin K, z (ix2 p l) * W (ix2 l c)) + b (ix2 (0 : Fin 1) c) := by
  rw [addf_apply, broadcastTo_1b_ab_apply]
  exact congrArg (· + _) (Cert.LibPlainDot.matmul_zero_apply D hrank hsize hlc hrc hL0 hR1 none z W p c)

/-! ## The three products' dimension numbers: rows of the left operand, columns of the right -/

theorem d165_L0 (j : S2000x256.Idx) (k : dot_S2000x165_S165x256_S2000x256_1_0_0_1_n_n.contr.Idx) :
    (dot_S2000x165_S165x256_S2000x256_1_0_0_1_n_n.lhsIdx j k 0).val = (j 0).val := by
  unfold DotDims.lhsIdx
  rw [dif_neg (show ¬(0 : Fin S2000x165.rank) ∈ dot_S2000x165_S165x256_S2000x256_1_0_0_1_n_n.lhsBatch by decide), dif_pos (show (0 : Fin S2000x165.rank) ∈ dot_S2000x165_S165x256_S2000x256_1_0_0_1_n_n.lhsNonContracting by decide)]
  rfl
theorem d165_R1 (j : S2000x256.Idx) (k : dot_S2000x165_S165x256_S2000x256_1_0_0_1_n_n.contr.Idx) :
    (dot_S2000x165_S165x256_S2000x256_1_0_0_1_n_n.rhsIdx j k 1).val = (j 1).val := by
  unfold DotDims.rhsIdx
  rw [dif_neg (show ¬(1 : Fin S165x256.rank) ∈ dot_S2000x165_S165x256_S2000x256_1_0_0_1_n_n.rhsBatch by decide), dif_pos (show (1 : Fin S165x256.rank) ∈ dot_S2000x165_S165x256_S2000x256_1_0_0_1_n_n.rhsNonContracting by decide)]
  rfl
theorem d256_L0 (j : S2000x256.Idx) (k : dot_S2000x256_S256x256_S2000x256_1_0_0_1_n_n.contr.Idx) :
    (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem d256_R1 (j : S2000x256.Idx) (k : dot_S2000x256_S256x256_S2000x256_1_0_0_1_n_n.contr.Idx) :
    (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl
theorem d128_L0 (j : S2000x128.Idx) (k : dot_S2000x256_S256x128_S2000x128_1_0_0_1_n_n.contr.Idx) :
    (dot_S2000x256_S256x128_S2000x128_1_0_0_1_n_n.lhsIdx j k 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem d128_R1 (j : S2000x128.Idx) (k : dot_S2000x256_S256x128_S2000x128_1_0_0_1_n_n.contr.Idx) :
    (dot_S2000x256_S256x128_S2000x128_1_0_0_1_n_n.rhsIdx j k 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-! ## The two bodies -/

/-- The first body stores the rectified perceptron of its tiles. -/
theorem pay0_eq (x0 x1 : Vec Ideal S2000x165 .f32) (x2 : Vec Ideal S165x256 .f32) (x3 : Vec Ideal S1x256 .f32)
    (x4 : Vec Ideal S256x256 .f32) (x5 : Vec Ideal S1x256 .f32) :
    k0_pay1 x0 x1 x2 x3 x4 x5 = hidden x0 x1 x2 x3 x4 x5 := by
  funext j
  obtain ⟨p, q, rfl⟩ : ∃ (p : Fin 2000) (q : Fin 256), j = ix2 p q := ⟨j 0, j 1, eq_ix2 j⟩
  rw [hidden_apply]
  unfold k0_pay1 layer entry
  simp only [shapeCast_self, maximumf_apply, truncf_apply, broadcast_apply,
    affine_apply dot_S2000x256_S256x256_S2000x256_1_0_0_1_n_n rfl rfl rfl rfl d256_L0 d256_R1,
    affine_apply dot_S2000x165_S165x256_S2000x256_1_0_0_1_n_n rfl rfl rfl rfl d165_L0 d165_R1]
  simp only [addf_apply]
  rfl

/-- The second body stores the perceptron of its tiles. -/
theorem pay1_eq (x0 : Vec Ideal S2000x256 .bf16) (x1 : Vec Ideal S2000x256 .f32) (x2 : Vec Ideal S256x256 .f32)
    (x3 : Vec Ideal S1x256 .f32) (x4 : Vec Ideal S256x128 .f32) (x5 : Vec Ideal S1x128 .f32) :
    k1_pay1 x0 x1 x2 x3 x4 x5 = out x0 x1 x2 x3 x4 x5 := by
  funext j
  obtain ⟨p, q, rfl⟩ : ∃ (p : Fin 2000) (q : Fin 128), j = ix2 p q := ⟨j 0, j 1, eq_ix2 j⟩
  rw [out_apply]
  unfold k1_pay1 layer entry
  simp only [shapeCast_self, maximumf_apply, truncf_apply, broadcast_apply,
    affine_apply dot_S2000x256_S256x128_S2000x128_1_0_0_1_n_n rfl rfl rfl rfl d128_L0 d128_R1,
    affine_apply dot_S2000x256_S256x256_S2000x256_1_0_0_1_n_n rfl rfl rfl rfl d256_L0 d256_R1]
  simp only [addf_apply, extf_apply]
  rfl

end Cert.KernelIdeal.Body

end
-- ==== Proof.Region0.lean ====
/-
  The first pallas_call as one array function.

  The grid has 25 points; point t stages rows 2000·t … 2000·t + 1999 of the node features and of the aggregate, the
  whole of both layers and bias rows, and writes back rows 2000·t … 2000·t + 1999 of the result.  What it writes back
  is the rectified perceptron of its tiles, and an entry of the perceptron reads only its own node's row, so the tile
  written at point t is the tile of ONE whole-array function: the rectified perceptron of the whole arrays.  The 25
  row blocks tile the 50000 rows (row r lies in block r / 2000), so after the last point the result array holds that
  function everywhere.  All of this is stated at arbitrary contents `V` of the buffers when the call is entered.
-/
import proofs.«168716_j1812476199284_2_alg».proof.Proof.Gen.KernelIdeal.Frame
import proofs.«168716_j1812476199284_2_alg».proof.Proof.BodyValue
import Idealize.ShloMosaic.Lib.Pipeline.Value
import Idealize.ShloMosaic.Lib.Tactic

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Perceptron

variable (V : (c : Dev nD) → (b : Ref sig .tc) → Buf (Elt Ideal) ((c : Thread nD τ).loc b))

theorem hz : (![0, 0] : Fin 2 → Nat) = fun _ => 0 := funext fun a => by fin_cases a <;> rfl

/-- The array the call leaves: the rectified perceptron of the six arrays as the call finds them. -/
def G (c : Dev nD) : S50000x256.Idx → EReal :=
  Perceptron.hidden (N := 50000) (K := 165) (H := 256) (C := 256) (V c main_arg0) (V c main_v13) (V c main_arg2) (V c main_v14)
    (V c main_arg4) (V c main_v15)

/-- The printed index maps over the grid: the three row-tiled windows sit at block (t, 0), the four resident ones at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each staged tile, read where the array holds it -/

/-- The feature tile at point t is rows 2000·t … of the feature array. -/
theorem tile_x (c : Dev nD) (t : Fin cfg0.N) (p : Fin 2000) (l : Fin 165) (r : Fin 50000) (hr : r.val = t.val * 2000 + p.val) :
    (iblk0 V c 0 t : Vec Ideal S2000x165 .f32) (ix2 p l) = (V c main_arg0 : S50000x165.Idx → EReal) (ix2 r l) := by
  obtain ⟨e0, e1, -⟩ := idx_facts t
  unfold iblk0
  rw [View.read_apply]
  show V c main_arg0 _ = V c main_arg0 _
  refine congrArg _ ?_
  funext a; apply Fin.ext
  match a with
  | ⟨0, _⟩ => show win0_0.index t (0 : Fin 2) * 2000 + 1 * p.val = r.val; omega
  | ⟨1, _⟩ => show win0_0.index t (1 : Fin 2) * 165 + 1 * l.val = l.val; omega

/-- The aggregate tile at point t is rows 2000·t … of the aggregate array. -/
theorem tile_agg (c : Dev nD) (t : Fin cfg0.N) (p : Fin 2000) (l : Fin 165) (r : Fin 50000) (hr : r.val = t.val * 2000 + p.val) :
    (iblk0 V c 1 t : Vec Ideal S2000x165 .f32) (ix2 p l) = (V c main_v13 : S50000x165.Idx → EReal) (ix2 r l) := by
  obtain ⟨-, -, e0, e1, -⟩ := idx_facts t
  unfold iblk0
  rw [View.read_apply]
  show V c main_v13 _ = V c main_v13 _
  refine congrArg _ ?_
  funext a; apply Fin.ext
  match a with
  | ⟨0, _⟩ => show win0_1.index t (0 : Fin 2) * 2000 + 1 * p.val = r.val; omega
  | ⟨1, _⟩ => show win0_1.index t (1 : Fin 2) * 165 + 1 * l.val = l.val; omega

/-- The first layer is staged whole. -/
theorem tile_wa (c : Dev nD) (t : Fin cfg0.N) (l : Fin 165) (k : Fin 256) :
    (iblk0 V c 2 t : Vec Ideal S165x256 .f32) (ix2 l k) = (V c main_arg2 : S165x256.Idx → EReal) (ix2 l k) := by
  obtain ⟨-, -, -, -, e0, e1, -⟩ := idx_facts t
  unfold iblk0
  rw [View.read_apply]
  show V c main_arg2 _ = V c main_arg2 _
  refine congrArg _ ?_
  funext a; apply Fin.ext
  match a with
  | ⟨0, _⟩ => show win0_2.index t (0 : Fin 2) * 165 + 1 * l.val = l.val; omega
  | ⟨1, _⟩ => show win0_2.index t (1 : Fin 2) * 256 + 1 * k.val = k.val; omega

/-- Its bias row is staged whole. -/
theorem tile_ba (c : Dev nD) (t : Fin cfg0.N) (k : Fin 256) :
    (iblk0 V c 3 t : Vec Ideal S1x256 .f32) (ix2 (0 : Fin 1) k) = (V c main_v14 : S1x256.Idx → EReal) (ix2 (0 : Fin 1) k) := by
  obtain ⟨-, -, -, -, -, -, e0, e1, -⟩ := idx_facts t
  unfold iblk0
  rw [View.read_apply]
  show V c main_v14 _ = V c main_v14 _
  refine congrArg _ ?_
  funext a; apply Fin.ext
  match a with
  | ⟨0, _⟩ => show win0_3.index t (0 : Fin 2) * 1 + 1 * (0 : Fin 1).val = (0 : Fin 1).val; omega
  | ⟨1, _⟩ => show win0_3.index t (1 : Fin 2) * 256 + 1 * k.val = k.val; omega

/-- The second layer is staged whole. -/
theorem tile_wb (c : Dev nD) (t : Fin cfg0.N) (k : Fin 256) (q : Fin 256) :
    (iblk0 V c 4 t : Vec Ideal S256x256 .f32) (ix2 k q) = (V c main_arg4 : S256x256.Idx → EReal) (ix2 k q) := by
  obtain ⟨-, -, -, -, -, -, -, -, e0, e1, -⟩ := idx_facts t
  unfold iblk0
  rw [View.read_apply]
  show V c main_arg4 _ = V c main_arg4 _
  refine congrArg _ ?_
  funext a; apply Fin.ext
  match a with
  | ⟨0, _⟩ => show win0_4.index t (0 : Fin 2) * 256 + 1 * k.val = k.val; omega
  | ⟨1, _⟩ => show win0_4.index t (1 : Fin 2) * 256 + 1 * q.val = q.val; omega

/-- Its bias row is staged whole. -/
theorem tile_bb (c : Dev nD) (t : Fin cfg0.N) (q : Fin 256) :
    (iblk0 V c 5 t : Vec Ideal S1x256 .f32) (ix2 (0 : Fin 1) q) = (V c main_v15 : S1x256.Idx → EReal) (ix2 (0 : Fin 1) q) := by
  obtain ⟨-, -, -, -, -, -, -, -, -, -, e0, e1, -⟩ := idx_facts t
  unfold iblk0
  rw [View.read_apply]
  show V c main_v15 _ = V c main_v15 _
  refine congrArg _ ?_
  funext a; apply Fin.ext
  match a with
  | ⟨0, _⟩ => show win0_5.index t (0 : Fin 2) * 1 + 1 * (0 : Fin 1).val = (0 : Fin 1).val; omega
  | ⟨1, _⟩ => show win0_5.index t (1 : Fin 2) * 256 + 1 * q.val = q.val; omega

/-! ## What a point writes back, and the array after the last point -/

/-- What point t writes back is rows 2000·t … of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x165) hz, View.ld_unit_zero (S := S165x256) hz,
    View.ld_unit_zero (S := S1x256) hz, View.ld_unit_zero (S := S256x256) hz]
  rw [Cert.KernelIdeal.Body.pay0_eq]
  obtain ⟨-, -, -, -, -, -, -, -, -, -, -, -, e0, e1⟩ := idx_facts t
  funext j
  obtain ⟨p, q, rfl⟩ : ∃ (p : Fin 2000) (q : Fin 256), j = ix2 p q := ⟨j 0, j 1, eq_ix2 j⟩
  show Perceptron.hidden (N := 2000) (K := 165) (H := 256) (C := 256) (iblk0 V c 0 t) (iblk0 V c 1 t) (iblk0 V c 2 t)
      (iblk0 V c 3 t) (iblk0 V c 4 t) (iblk0 V c 5 t) (ix2 p q) = G V c (((cfg0.win 6).blk t).view.emb (ix2 p q))
  unfold G Perceptron.hidden
  refine congrArg (max · zero) ?_
  have hr : ((((cfg0.win 6).blk t).view.emb (ix2 p q)) 0).val = t.val * 2000 + p.val := by
    show win0_6.index t (0 : Fin 2) * 2000 + 1 * p.val = _; omega
  have hq : ((((cfg0.win 6).blk t).view.emb (ix2 p q)) 1).val = q.val := by
    show win0_6.index t (1 : Fin 2) * 256 + 1 * q.val = _; omega
  have hq' : ((((cfg0.win 6).blk t).view.emb (ix2 p q)) 1 : Fin 256) = q := Fin.ext hq
  refine layer_congr _ _ _ _ _ _ _ _ _ _ _ _ p _ q _ (fun l => tile_x V c t p l _ hr) (fun l => tile_agg V c t p l _ hr)
    (fun l k => tile_wa V c t l k) (fun k => tile_ba V c t k) (fun k => ?_) ?_
  · rw [hq']; exact tile_wb V c t k q
  · rw [hq']; exact tile_bb V c t q

/-- An index of the result array is in point t's block iff its row is among the block's 2000 rows. -/
theorem mem_blk (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v16).slice (win0_6.rect t)).set ↔ _
  rw [View.set_slice_whole, Rect.mem_set_unit]
  exact Iff.rfl

/-- Every index of the result array is in some point's block: row r in block r / 2000. -/
theorem cover (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, -, -, -, -, -, -, -, -, e0, e1⟩ := idx_facts t
  have ht : t.val = (i 0).val / 2000 := rfl
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-- After the last point the result array holds `G`. -/
theorem final (c : Dev nD) : (dat0 V c).arrAt 6 cfg0.N = G V c :=
  (dat0 V c).arrAt_eq_of_cover 6 (G V c) (fun t _ => flushed_eq V c t) cover

end Cert.KernelIdeal.Region0

end
-- ==== Proof.Region1.lean ====
/-
  The second pallas_call as one array function.

  Same grid and tiling as the first call: point t stages rows 2000·t … 2000·t + 1999 of the hidden features (kept in
  the narrow float format, which changes no value on the extended reals) and of their aggregate, the whole of both
  layers and bias rows — the second layer and its bias widened with zero columns to 128 channels —, and writes back
  rows 2000·t … of the 50000 × 128 result.  What it writes back is the perceptron of its tiles with no rectifier
  after it, an entry of which reads only its own node's row; so after the last point the result array holds the
  perceptron of the whole arrays.  Stated at arbitrary contents `V` of the buffers when the call is entered.
-/
import proofs.«168716_j1812476199284_2_alg».proof.Proof.Gen.KernelIdeal.Frame
import proofs.«168716_j1812476199284_2_alg».proof.Proof.BodyValue
import Idealize.ShloMosaic.Lib.Pipeline.Value
import Idealize.ShloMosaic.Lib.Tactic

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Perceptron

variable (V : (c : Dev nD) → (b : Ref sig .tc) → Buf (Elt Ideal) ((c : Thread nD τ).loc b))

theorem hz : (![0, 0] : Fin 2 → Nat) = fun _ => 0 := funext fun a => by fin_cases a <;> rfl

/-- The array the call leaves: the perceptron of the six arrays as the call finds them, 128 channels wide. -/
def G (c : Dev nD) : S50000x128.Idx → EReal :=
  Perceptron.out (N := 50000) (K := 256) (H := 256) (C := 128) (V c main_v17) (V c main_v28) (V c main_arg6) (V c main_v31)
    (V c main_v29) (V c main_v32)

/-- The printed index maps over the grid: the three row-tiled windows sit at block (t, 0), the four resident ones at
    block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each staged tile, read where the array holds it -/

/-- The hidden-feature tile at point t is rows 2000·t … of the hidden-feature array. -/
theorem tile_h (c : Dev nD) (t : Fin cfg1.N) (p : Fin 2000) (l : Fin 256) (r : Fin 50000) (hr : r.val = t.val * 2000 + p.val) :
    (iblk1 V c 0 t : Vec Ideal S2000x256 .bf16) (ix2 p l) = (V c main_v17 : S50000x256.Idx → EReal) (ix2 r l) := by
  obtain ⟨e0, e1, -⟩ := idx_facts t
  unfold iblk1
  rw [View.read_apply]
  show V c main_v17 _ = V c main_v17 _
  refine congrArg _ ?_
  funext a; apply Fin.ext
  match a with
  | ⟨0, _⟩ => show win1_0.index t (0 : Fin 2) * 2000 + 1 * p.val = r.val; omega
  | ⟨1, _⟩ => show win1_0.index t (1 : Fin 2) * 256 + 1 * l.val = l.val; omega

/-- The aggregate tile at point t is rows 2000·t … of the aggregate array. -/
theorem tile_agg (c : Dev nD) (t : Fin cfg1.N) (p : Fin 2000) (l : Fin 256) (r : Fin 50000) (hr : r.val = t.val * 2000 + p.val) :
    (iblk1 V c 1 t : Vec Ideal S2000x256 .f32) (ix2 p l) = (V c main_v28 : S50000x256.Idx → EReal) (ix2 r l) := by
  obtain ⟨-, -, e0, e1, -⟩ := idx_facts t
  unfold iblk1
  rw [View.read_apply]
  show V c main_v28 _ = V c main_v28 _
  refine congrArg _ ?_
  funext a; apply Fin.ext
  match a with
  | ⟨0, _⟩ => show win1_1.index t (0 : Fin 2) * 2000 + 1 * p.val = r.val; omega
  | ⟨1, _⟩ => show win1_1.index t (1 : Fin 2) * 256 + 1 * l.val = l.val; omega

/-- The first layer is staged whole. -/
theorem tile_wa (c : Dev nD) (t : Fin cfg1.N) (l : Fin 256) (k : Fin 256) :
    (iblk1 V c 2 t : Vec Ideal S256x256 .f32) (ix2 l k) = (V c main_arg6 : S256x256.Idx → EReal) (ix2 l k) := by
  obtain ⟨-, -, -, -, e0, e1, -⟩ := idx_facts t
  unfold iblk1
  rw [View.read_apply]
  show V c main_arg6 _ = V c main_arg6 _
  refine congrArg _ ?_
  funext a; apply Fin.ext
  match a with
  | ⟨0, _⟩ => show win1_2.index t (0 : Fin 2) * 256 + 1 * l.val = l.val; omega
  | ⟨1, _⟩ => show win1_2.index t (1 : Fin 2) * 256 + 1 * k.val = k.val; omega

/-- Its bias row is staged whole. -/
theorem tile_ba (c : Dev nD) (t : Fin cfg1.N) (k : Fin 256) :
    (iblk1 V c 3 t : Vec Ideal S1x256 .f32) (ix2 (0 : Fin 1) k) = (V c main_v31 : S1x256.Idx → EReal) (ix2 (0 : Fin 1) k) := by
  obtain ⟨-, -, -, -, -, -, e0, e1, -⟩ := idx_facts t
  unfold iblk1
  rw [View.read_apply]
  show V c main_v31 _ = V c main_v31 _
  refine congrArg _ ?_
  funext a; apply Fin.ext
  match a with
  | ⟨0, _⟩ => show win1_3.index t (0 : Fin 2) * 1 + 1 * (0 : Fin 1).val = (0 : Fin 1).val; omega
  | ⟨1, _⟩ => show win1_3.index t (1 : Fin 2) * 256 + 1 * k.val = k.val; omega

/-- The widened second layer is staged whole. -/
theorem tile_wb (c : Dev nD) (t : Fin cfg1.N) (k : Fin 256) (q : Fin 128) :
    (iblk1 V c 4 t : Vec Ideal S256x128 .f32) (ix2 k q) = (V c main_v29 : S256x128.Idx → EReal) (ix2 k q) := by
  obtain ⟨-, -, -, -, -, -, -, -, e0, e1, -⟩ := idx_facts t
  unfold iblk1
  rw [View.read_apply]
  show V c main_v29 _ = V c main_v29 _
  refine congrArg _ ?_
  funext a; apply Fin.ext
  match a with
  | ⟨0, _⟩ => show win1_4.index t (0 : Fin 2) * 256 + 1 * k.val = k.val; omega
  | ⟨1, _⟩ => show win1_4.index t (1 : Fin 2) * 128 + 1 * q.val = q.val; omega

/-- Its widened bias row is staged whole. -/
theorem tile_bb (c : Dev nD) (t : Fin cfg1.N) (q : Fin 128) :
    (iblk1 V c 5 t : Vec Ideal S1x128 .f32) (ix2 (0 : Fin 1) q) = (V c main_v32 : S1x128.Idx → EReal) (ix2 (0 : Fin 1) q) := by
  obtain ⟨-, -, -, -, -, -, -, -, -, -, e0, e1, -⟩ := idx_facts t
  unfold iblk1
  rw [View.read_apply]
  show V c main_v32 _ = V c main_v32 _
  refine congrArg _ ?_
  funext a; apply Fin.ext
  match a with
  | ⟨0, _⟩ => show win1_5.index t (0 : Fin 2) * 1 + 1 * (0 : Fin 1).val = (0 : Fin 1).val; omega
  | ⟨1, _⟩ => show win1_5.index t (1 : Fin 2) * 128 + 1 * q.val = q.val; omega

/-! ## What a point writes back, and the array after the last point -/

/-- What point t writes back is rows 2000·t … of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x256) hz, View.ld_unit_zero (S := S256x256) hz,
    View.ld_unit_zero (S := S1x256) hz, View.ld_unit_zero (S := S256x128) hz, View.ld_unit_zero (S := S1x128) hz]
  rw [Cert.KernelIdeal.Body.pay1_eq]
  obtain ⟨-, -, -, -, -, -, -, -, -, -, -, -, e0, e1⟩ := idx_facts t
  funext j
  obtain ⟨p, q, rfl⟩ : ∃ (p : Fin 2000) (q : Fin 128), j = ix2 p q := ⟨j 0, j 1, eq_ix2 j⟩
  show Perceptron.out (N := 2000) (K := 256) (H := 256) (C := 128) (iblk1 V c 0 t) (iblk1 V c 1 t) (iblk1 V c 2 t)
      (iblk1 V c 3 t) (iblk1 V c 4 t) (iblk1 V c 5 t) (ix2 p q) = G V c (((cfg1.win 6).blk t).view.emb (ix2 p q))
  unfold G Perceptron.out
  have hr : ((((cfg1.win 6).blk t).view.emb (ix2 p q)) 0).val = t.val * 2000 + p.val := by
    show win1_6.index t (0 : Fin 2) * 2000 + 1 * p.val = _; omega
  have hq : ((((cfg1.win 6).blk t).view.emb (ix2 p q)) 1).val = q.val := by
    show win1_6.index t (1 : Fin 2) * 128 + 1 * q.val = _; omega
  have hq' : ((((cfg1.win 6).blk t).view.emb (ix2 p q)) 1 : Fin 128) = q := Fin.ext hq
  refine layer_congr _ _ _ _ _ _ _ _ _ _ _ _ p _ q _ (fun l => tile_h V c t p l _ hr) (fun l => tile_agg V c t p l _ hr)
    (fun l k => tile_wa V c t l k) (fun k => tile_ba V c t k) (fun k => ?_) ?_
  · rw [hq']; exact tile_wb V c t k q
  · rw [hq']; exact tile_bb V c t q

/-- An index of the result array is in point t's block iff its row is among the block's 2000 rows. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v33).slice (win1_6.rect t)).set ↔ _
  rw [View.set_slice_whole, Rect.mem_set_unit]
  exact Iff.rfl

/-- Every index of the result array is in some point's block: row r in block r / 2000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, -, -, -, -, e0, e1⟩ := idx_facts t
  have ht : t.val = (i 0).val / 2000 := rfl
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- After the last point the result array holds `G`. -/
theorem final (c : Dev nD) : (dat1 V c).arrAt 6 cfg1.N = G V c :=
  (dat1 V c).arrAt_eq_of_cover 6 (G V c) (fun t _ => flushed_eq V c t) cover

end Cert.KernelIdeal.Region1

end
-- ==== Proof.RefValue.lean ====
/-
  The reference, stage by stage, is the perceptron twice.

  The reference adds the features and their aggregate over the edges, multiplies by the first layer, adds the bias
  spread over the nodes, rectifies, multiplies by the second layer and adds its bias; it rectifies the result,
  aggregates it over the same edges and does the same with the second pair of layers, without a final rectifier.
  Read at a node r and a channel c, each product is the sum over the contracted index and each spread bias is the
  bias entry of the channel, so the hidden features are `Perceptron.hidden` of the arguments and the result is
  `Perceptron.out` of the hidden features and their aggregate.  The two aggregations (a gather of the source nodes'
  rows and a scatter-add into the destination nodes' rows) are never opened: they enter only as arrays.
-/
import proofs.«168716_j1812476199284_2_alg».proof.Proof.Gen.ReferenceIdeal.Read
import proofs.«168716_j1812476199284_2_alg».proof.Proof.LibPerceptron

noncomputable section

namespace Cert.ReferenceIdeal.RefValue

open Idealize.ShloMosaic Idealize.ShloMosaic.ValueIdx Cert.ReferenceIdeal Cert.ReferenceIdeal.Read Cert.Perceptron

/-! ## The generated index maps at a node and a channel -/

theorem l15 (r : Fin 50000) (k : Fin 256) (l : Fin 165) : lidx_main_v15 (ix2 r k) l = ix2 r l := funext fun a => Fin.ext (by match a with | ⟨0, _⟩ => rfl | ⟨1, _⟩ => rfl)
theorem r15 (r : Fin 50000) (k : Fin 256) (l : Fin 165) : ridx_main_v15 (ix2 r k) l = ix2 l k := funext fun a => Fin.ext (by match a with | ⟨0, _⟩ => rfl | ⟨1, _⟩ => rfl)
theorem b17 (r : Fin 50000) (k : Fin 256) : idx_main_v16 (idx_main_v17 (ix2 r k)) = ix1 k := funext fun a => Fin.ext (by match a with | ⟨0, _⟩ => rfl)
theorem l20 (r : Fin 50000) (c : Fin 256) (k : Fin 256) : lidx_main_v20 (ix2 r c) k = ix2 r k := funext fun a => Fin.ext (by match a with | ⟨0, _⟩ => rfl | ⟨1, _⟩ => rfl)
theorem r20 (r : Fin 50000) (c : Fin 256) (k : Fin 256) : ridx_main_v20 (ix2 r c) k = ix2 k c := funext fun a => Fin.ext (by match a with | ⟨0, _⟩ => rfl | ⟨1, _⟩ => rfl)
theorem b22 (r : Fin 50000) (c : Fin 256) : idx_main_v21 (idx_main_v22 (ix2 r c)) = ix1 c := funext fun a => Fin.ext (by match a with | ⟨0, _⟩ => rfl)
theorem l36 (r : Fin 50000) (k : Fin 256) (l : Fin 256) : lidx_main_v36 (ix2 r k) l = ix2 r l := funext fun a => Fin.ext (by match a with | ⟨0, _⟩ => rfl | ⟨1, _⟩ => rfl)
theorem r36 (r : Fin 50000) (k : Fin 256) (l : Fin 256) : ridx_main_v36 (ix2 r k) l = ix2 l k := funext fun a => Fin.ext (by match a with | ⟨0, _⟩ => rfl | ⟨1, _⟩ => rfl)
theorem b38 (r : Fin 50000) (k : Fin 256) : idx_main_v37 (idx_main_v38 (ix2 r k)) = ix1 k := funext fun a => Fin.ext (by match a with | ⟨0, _⟩ => rfl)
theorem l41 (r : Fin 50000) (c : Fin 2) (k : Fin 256) : lidx_main_v41 (ix2 r c) k = ix2 r k := funext fun a => Fin.ext (by match a with | ⟨0, _⟩ => rfl | ⟨1, _⟩ => rfl)
theorem r41 (r : Fin 50000) (c : Fin 2) (k : Fin 256) : ridx_main_v41 (ix2 r c) k = ix2 k c := funext fun a => Fin.ext (by match a with | ⟨0, _⟩ => rfl | ⟨1, _⟩ => rfl)
theorem b43 (r : Fin 50000) (c : Fin 2) : idx_main_v42 (idx_main_v43 (ix2 r c)) = ix1 c := funext fun a => Fin.ext (by match a with | ⟨0, _⟩ => rfl)

/-! ## The two convolutions -/

/-- The hidden features the reference computes: the rectified perceptron of the features and their aggregate. -/
theorem hidden_eq (x0 : (⟨S50000x165, .f32⟩ : BufTy).Contents (Elt Ideal)) (x1 : (⟨S2x800000, .i32⟩ : BufTy).Contents (Elt Ideal)) (x2 : (⟨S165x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) :
    val_main_v24 (F := Ideal) x0 x1 x2 x3 x4 x5
      = Perceptron.hidden (N := 50000) (K := 165) (H := 256) (C := 256) x0 (val_main_v13 (F := Ideal) x0 x1) x2 (row x3) x4 (row x5) := by
  funext i
  obtain ⟨r, c, rfl⟩ : ∃ (r : Fin 50000) (c : Fin 256), i = ix2 r c := ⟨i 0, i 1, eq_ix2 i⟩
  rw [hidden_apply]
  unfold layer entry
  rw [val_main_v24_apply, val_main_v23_apply, val_main_v20_apply, val_main_v22_apply, val_main_v21_apply,
    val_main_call1_v0_apply, val_main_call1_cst_apply]
  simp only [l20, r20, b22, val_main_v19_apply, val_main_v18_apply, val_main_v15_apply, val_main_v17_apply,
    val_main_v16_apply, val_main_call0_v0_apply, val_main_call0_cst_apply, l15, r15, b17, val_main_v14_apply, row_apply]
  rfl

/-- The aggregate of hidden features `h` over the edges `x1`, as the reference computes it: the source nodes' rows
    gathered and added into the destination nodes' rows.  Kept closed. -/
def agg (h : (⟨S50000x256, .f32⟩ : BufTy).Contents (Elt Ideal)) (x1 : (⟨S2x800000, .i32⟩ : BufTy).Contents (Elt Ideal)) :
    (⟨S50000x256, .f32⟩ : BufTy).Contents (Elt Ideal) :=
  Host.scatterAdd (F := Ideal) (φ := .f32) scatter_S50000x256_S800000x1_S800000x256_1_0_0_1 (val_main_v32 (F := Ideal)) (val_main_v33 (F := Ideal) x1)
    (Host.gather gather_S50000x256_S800000x1_S800000x256_1_0_n_n_0_1_1256 h (val_main_v30 (F := Ideal) x1))

set_option maxRecDepth 8192 in
theorem agg_eq (x0 : (⟨S50000x165, .f32⟩ : BufTy).Contents (Elt Ideal)) (x1 : (⟨S2x800000, .i32⟩ : BufTy).Contents (Elt Ideal)) (x2 : (⟨S165x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) :
    val_main_v34 (F := Ideal) x0 x1 x2 x3 x4 x5 = agg (val_main_v24 (F := Ideal) x0 x1 x2 x3 x4 x5) x1 := rfl

/-- The reference's result: the perceptron of the hidden features and their aggregate, no rectifier after it. -/
theorem out_eq (x0 : (⟨S50000x165, .f32⟩ : BufTy).Contents (Elt Ideal)) (x1 : (⟨S2x800000, .i32⟩ : BufTy).Contents (Elt Ideal)) (x2 : (⟨S165x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x2, .f32⟩ : BufTy).Contents (Elt Ideal)) (x9 : (⟨S2, .f32⟩ : BufTy).Contents (Elt Ideal)) :
    val_main_v44 (F := Ideal) x0 x1 x2 x3 x4 x5 x6 x7 x8 x9
      = Perceptron.out (N := 50000) (K := 256) (H := 256) (C := 2) (val_main_v24 (F := Ideal) x0 x1 x2 x3 x4 x5)
          (val_main_v34 (F := Ideal) x0 x1 x2 x3 x4 x5) x6 (row x7) x8 (row x9) := by
  funext i
  obtain ⟨r, c, rfl⟩ : ∃ (r : Fin 50000) (c : Fin 2), i = ix2 r c := ⟨i 0, i 1, eq_ix2 i⟩
  rw [out_apply]
  unfold layer entry
  rw [val_main_v44_apply, val_main_v41_apply, val_main_v43_apply, val_main_v42_apply]
  simp only [l41, r41, b43, val_main_v40_apply, val_main_v39_apply, val_main_v36_apply, val_main_v38_apply,
    val_main_v37_apply, val_main_call2_v0_apply, val_main_call2_cst_apply, l36, r36, b38, val_main_v35_apply, row_apply]
  rfl

/-- The whole reference as one function of its ten arguments. -/
def spec (x0 : (⟨S50000x165, .f32⟩ : BufTy).Contents (Elt Ideal)) (x1 : (⟨S2x800000, .i32⟩ : BufTy).Contents (Elt Ideal)) (x2 : (⟨S165x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x2, .f32⟩ : BufTy).Contents (Elt Ideal)) (x9 : (⟨S2, .f32⟩ : BufTy).Contents (Elt Ideal)) : (⟨S50000x2, .f32⟩ : BufTy).Contents (Elt Ideal) :=
  Perceptron.out (N := 50000) (K := 256) (H := 256) (C := 2)
    (Perceptron.hidden (N := 50000) (K := 165) (H := 256) (C := 256) x0 (val_main_v13 (F := Ideal) x0 x1) x2 (row x3) x4 (row x5))
    (agg (Perceptron.hidden (N := 50000) (K := 165) (H := 256) (C := 256) x0 (val_main_v13 (F := Ideal) x0 x1) x2 (row x3) x4 (row x5)) x1)
    x6 (row x7) x8 (row x9)

theorem spec_eq (x0 : (⟨S50000x165, .f32⟩ : BufTy).Contents (Elt Ideal)) (x1 : (⟨S2x800000, .i32⟩ : BufTy).Contents (Elt Ideal)) (x2 : (⟨S165x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x2, .f32⟩ : BufTy).Contents (Elt Ideal)) (x9 : (⟨S2, .f32⟩ : BufTy).Contents (Elt Ideal)) : val_main_v44 (F := Ideal) x0 x1 x2 x3 x4 x5 x6 x7 x8 x9 = spec x0 x1 x2 x3 x4 x5 x6 x7 x8 x9 := by
  rw [out_eq, agg_eq, hidden_eq]
  rfl

end Cert.ReferenceIdeal.RefValue

end
-- ==== Proof.KernelValue.lean ====
/-
  The idealized kernel's result is the reference's function of the arguments.

  Reading the result buffer backwards through @main: it is the first two columns of what the second pallas_call
  leaves; that is the perceptron of the buffers the call finds (hidden features, their aggregate, the second pair of
  layers with the output layer and its bias widened by 126 zero columns); the hidden features are what the first
  pallas_call leaves, the rectified perceptron of the features, their aggregate and the first pair of layers.

  The host operations between and around the calls are the reference's own: the same slices of the edge list, the same
  wrap of negative node numbers, the same gather of source rows and scatter-add into destination rows.  They are
  matched whole against the reference's stages and never opened.  The kernel rounds the hidden features to the narrow
  float format before gathering and widens them after; on the extended reals both are the identity.  A bias vector
  cast to a 1 × n row is the row.  Of the widened output layer an entry in the first two columns reads only original
  columns, so the 126 zero columns never enter the sliced result.
-/
import proofs.«168716_j1812476199284_2_alg».proof.Proof.Gen.KernelIdeal.Frame
import proofs.«168716_j1812476199284_2_alg».proof.Proof.Region0
import proofs.«168716_j1812476199284_2_alg».proof.Proof.Region1
import proofs.«168716_j1812476199284_2_alg».proof.Proof.RefValue
import Idealize.ShloMosaic.Lib.StableHlo.Run
import Idealize.ShloMosaic.Lib.KernelVsHost
import Idealize.ShloMosaic.Lib.ValueLayout

set_option maxRecDepth 16384

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.Perceptron

variable (m : (ℓ : Loc nD τ sig) → Buf (Elt Ideal) ℓ) (ρ : Dev nD → PrngReg)

/-- A vector cast to a 1 × n row is the row. -/
theorem cast_row {n : ℕ} (b : (⟨1, ![n]⟩ : Shape).Idx → EReal) (h : (⟨1, ![n]⟩ : Shape).ShapeCasts ⟨2, ![1, n]⟩) :
    shapeCast (⟨2, ![1, n]⟩ : Shape) b h = row b := by
  funext i
  obtain ⟨u, k, rfl⟩ : ∃ (u : Fin 1) (k : Fin n), i = ix2 u k := ⟨i 0, i 1, eq_ix2 i⟩
  rw [shapeCast_a_1a_apply, row_apply]

/-! ## What the first pallas_call finds -/

theorem V1_arg0 (c : Dev nD) : V1 m ρ c main_arg0 = (m ((c : Thread nD τ).loc main_arg0)) := by
  show StableHlo.after hostOps0 (W0 m ρ c) (Proc.devRef .tc main_arg0) = _
  after_results <;> rfl
theorem V1_arg2 (c : Dev nD) : V1 m ρ c main_arg2 = (m ((c : Thread nD τ).loc main_arg2)) := by
  show StableHlo.after hostOps0 (W0 m ρ c) (Proc.devRef .tc main_arg2) = _
  after_results <;> rfl
theorem V1_arg4 (c : Dev nD) : V1 m ρ c main_arg4 = (m ((c : Thread nD τ).loc main_arg4)) := by
  show StableHlo.after hostOps0 (W0 m ρ c) (Proc.devRef .tc main_arg4) = _
  after_results <;> rfl
/-- The aggregate of the features over the edges is the reference's. -/
theorem V1_v13 (c : Dev nD) : V1 m ρ c main_v13 = Cert.ReferenceIdeal.Read.val_main_v13 (F := Ideal) (m ((c : Thread nD τ).loc main_arg0)) (m ((c : Thread nD τ).loc main_arg1)) := by
  show StableHlo.after hostOps0 (W0 m ρ c) (Proc.devRef .tc main_v13) = _
  after_results <;> rfl
theorem V1_v14 (c : Dev nD) : V1 m ρ c main_v14 = shapeCast S1x256 (m ((c : Thread nD τ).loc main_arg3)) shapeCasts_S256_S1x256 := by
  show StableHlo.after hostOps0 (W0 m ρ c) (Proc.devRef .tc main_v14) = _
  after_results <;> rfl
theorem V1_v15 (c : Dev nD) : V1 m ρ c main_v15 = shapeCast S1x256 (m ((c : Thread nD τ).loc main_arg5)) shapeCasts_S256_S1x256 := by
  show StableHlo.after hostOps0 (W0 m ρ c) (Proc.devRef .tc main_v15) = _
  after_results <;> rfl

/-- The hidden features: the rectified perceptron of the features, their aggregate and the first pair of layers. -/
abbrev hid (c : Dev nD) : S50000x256.Idx → EReal :=
  Perceptron.hidden (N := 50000) (K := 165) (H := 256) (C := 256) (m ((c : Thread nD τ).loc main_arg0))
    (Cert.ReferenceIdeal.Read.val_main_v13 (F := Ideal) (m ((c : Thread nD τ).loc main_arg0)) (m ((c : Thread nD τ).loc main_arg1))) (m ((c : Thread nD τ).loc main_arg2)) (row (m ((c : Thread nD τ).loc main_arg3))) (m ((c : Thread nD τ).loc main_arg4)) (row (m ((c : Thread nD τ).loc main_arg5)))

/-- The first pallas_call leaves the hidden features in its result buffer. -/
theorem W2_v16 (c : Dev nD) : W2 m ρ c (Proc.devRef .tc main_v16) = hid m c := by
  refine (W2_arr m ρ c 6).trans ((Region0.final (V1 m ρ) c).trans ?_)
  unfold Region0.G
  rw [V1_arg0 m ρ c, V1_v13 m ρ c, V1_arg2 m ρ c, V1_v14 m ρ c, V1_arg4 m ρ c, V1_v15 m ρ c, cast_row, cast_row]

/-! ## What the second pallas_call finds -/

/-- The edges' source column survives the first call untouched. -/
theorem W2_v1 (c : Dev nD) : W2 m ρ c (Proc.devRef .tc main_v1) = Cert.ReferenceIdeal.Read.val_main_v1 (F := Ideal) (m ((c : Thread nD τ).loc main_arg1)) := by
  rw [W2_of_ne m ρ c main_v1 (by decide)]
  show StableHlo.after hostOps0 (W0 m ρ c) (Proc.devRef .tc main_v1) = _
  after_results <;> rfl
/-- So does the destination column. -/
theorem W2_v3 (c : Dev nD) : W2 m ρ c (Proc.devRef .tc main_v3) = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  after_results <;> rfl
theorem W2_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results <;> rfl
theorem W2_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results <;> rfl
theorem W2_arg8 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results <;> rfl
theorem W2_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results <;> rfl

/-- The hidden features, rounded to the narrow format: the same array on the extended reals. -/
theorem V7_v17 (c : Dev nD) : V7 m ρ c main_v17 = hid m c := by
  show StableHlo.after hostOps1_4 (StableHlo.after hostOps1_3 (StableHlo.after hostOps1_2 (StableHlo.after hostOps1_1 (StableHlo.after hostOps1 (W2 m ρ c))))) (Proc.devRef .tc main_v17) = _
  after_results
  rw [W2_v16 m ρ c]
  rfl

/-- The aggregate of the hidden features over the edges is the reference's: the rounding before the gather and the
    widening after it change nothing. -/
theorem V7_v28 (c : Dev nD) : V7 m ρ c main_v28 = Cert.ReferenceIdeal.RefValue.agg (hid m c) (m ((c : Thread nD τ).loc main_arg1)) := by
  show StableHlo.after hostOps1_4 (StableHlo.after hostOps1_3 (StableHlo.after hostOps1_2 (StableHlo.after hostOps1_1 (StableHlo.after hostOps1 (W2 m ρ c))))) (Proc.devRef .tc main_v28) = _
  after_results
  rw [W2_v16 m ρ c, W2_v1 m ρ c, W2_v3 m ρ c]
  rfl

theorem V7_arg6 (c : Dev nD) : V7 m ρ c main_arg6 = (m ((c : Thread nD τ).loc main_arg6)) := by
  show StableHlo.after hostOps1_4 (StableHlo.after hostOps1_3 (StableHlo.after hostOps1_2 (StableHlo.after hostOps1_1 (StableHlo.after hostOps1 (W2 m ρ c))))) (Proc.devRef .tc main_arg6) = _
  after_results
  exact W2_arg6 m ρ c

theorem V7_v31 (c : Dev nD) : V7 m ρ c main_v31 = shapeCast S1x256 (m ((c : Thread nD τ).loc main_arg7)) shapeCasts_S256_S1x256 := by
  show StableHlo.after hostOps1_4 (StableHlo.after hostOps1_3 (StableHlo.after hostOps1_2 (StableHlo.after hostOps1_1 (StableHlo.after hostOps1 (W2 m ρ c))))) (Proc.devRef .tc main_v31) = _
  after_results
  rw [W2_arg7 m ρ c]
  rfl

/-- The output layer widened to 128 columns (the padding value is the integer zero converted, never read below). -/
theorem V7_v29 (c : Dev nD) : V7 m ρ c main_v29
    = pad S256x128 ![0, 0] ![0, 126] ![0, 0] (m ((c : Thread nD τ).loc main_arg8)) (sitofp (F := Ideal) .f32 (constantI S_ 32 0#32)) pads_S256x2_S256x128_000_01260 h_S_ := by
  show StableHlo.after hostOps1_4 (StableHlo.after hostOps1_3 (StableHlo.after hostOps1_2 (StableHlo.after hostOps1_1 (StableHlo.after hostOps1 (W2 m ρ c))))) (Proc.devRef .tc main_v29) = _
  after_results
  rw [show W2 m ρ c (Proc.devRef .tc (TRef.of (T := ⟨S256x2, .f32⟩) main_arg8).ref) = (m ((c : Thread nD τ).loc main_arg8)) from W2_arg8 m ρ c]
  rfl

/-- Its bias widened to 128 entries, as a row. -/
theorem V7_v32 (c : Dev nD) : V7 m ρ c main_v32
    = shapeCast S1x128 (pad S128 ![0] ![126] ![0] (m ((c : Thread nD τ).loc main_arg9)) (sitofp (F := Ideal) .f32 (constantI S_ 32 0#32)) pads_S2_S128_01260 h_S_) shapeCasts_S128_S1x128 := by
  show StableHlo.after hostOps1_4 (StableHlo.after hostOps1_3 (StableHlo.after hostOps1_2 (StableHlo.after hostOps1_1 (StableHlo.after hostOps1 (W2 m ρ c))))) (Proc.devRef .tc main_v32) = _
  after_results
  rw [show W2 m ρ c (Proc.devRef .tc (TRef.of (T := ⟨S2, .f32⟩) main_arg9).ref) = (m ((c : Thread nD τ).loc main_arg9)) from W2_arg9 m ρ c]
  rfl

/-! ## The result -/

/-- The result buffer when @main returns holds the reference's function of the ten arguments. -/
theorem result (c : Dev nD) : W9 m ρ c (Proc.devRef .tc main_v34)
    = Cert.ReferenceIdeal.RefValue.spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h33 : W8 m ρ c (Proc.devRef .tc main_v33) = Region1.G (V7 m ρ) c :=
    (W8_arr m ρ c 6).trans (Region1.final (V7 m ρ) c)
  have h34 : W9 m ρ c (Proc.devRef .tc main_v34)
      = extractStridedSlice S50000x2 ![0, 0] (W8 m ρ c (Proc.devRef .tc main_v33)) slices_S50000x128_S50000x2_0_0 := by
    show StableHlo.after hostOps2 (W8 m ρ c) (Proc.devRef .tc main_v34) = _
    after_results <;> rfl
  rw [h34, h33]
  funext i
  obtain ⟨r, q, rfl⟩ : ∃ (r : Fin 50000) (q : Fin 2), i = ix2 r q := ⟨i 0, i 1, eq_ix2 i⟩
  have hq : q.val < 128 := by have := q.isLt; omega
  rw [slice2_axis1_apply 0 _ _ r q ⟨q.val, hq⟩ (Nat.zero_add _).symm]
  unfold Cert.ReferenceIdeal.RefValue.spec Region1.G
  rw [out_apply, out_apply, V7_v17 m ρ c, V7_v28 m ρ c, V7_arg6 m ρ c, V7_v31 m ρ c, V7_v29 m ρ c, V7_v32 m ρ c, cast_row]
  refine layer_congr _ _ _ _ _ _ _ _ _ _ _ _ r r ⟨q.val, hq⟩ q (fun l => rfl) (fun l => rfl) (fun l k => rfl) (fun k => rfl)
    (fun k => ?_) ?_
  · exact pad_apply_of_inside _ _ _ _ _ _ _ (ix2 k (⟨q.val, hq⟩ : Fin 128)) (ix2 k q) (fun a => by
      match a with
      | ⟨0, _⟩ => show k.val = 0 + k.val * (0 + 1); omega
      | ⟨1, _⟩ => show q.val = 0 + q.val * (0 + 1); omega)
  · rw [shapeCast_a_1a_apply, row_apply]
    exact pad_apply_of_inside _ _ _ _ _ _ _ (ix1 (⟨q.val, hq⟩ : Fin 128)) (ix1 q) (fun a => by
      match a with
      | ⟨0, _⟩ => show q.val = 0 + q.val * (0 + 1); omega)

end Cert.KernelIdeal.Result

end
-- ==== Proof.lean ====
/-
  Two graph-isomorphism convolutions: a Pallas kernel for the dense part against plain jnp.

  Each convolution adds to a node's features the sum of its in-neighbours' features (a gather of the edges' source
  rows, scatter-added into the destination rows) and sends the sum through a two-layer perceptron.  The kernel runs
  the perceptron as a pallas_call over 25 tiles of 2000 nodes with both layers resident, fuses the rectifier between
  the convolutions into the first call, keeps the hidden features in a narrow float format, and widens the last layer
  from 2 to 128 columns with zeros, slicing the first 2 columns off afterwards.

  On the extended reals none of this changes a value: a change of float format is the identity; a product into a
  zero accumulator is the plain sum over the contracted index, as the host's product is; an entry of the perceptron
  reads only its own node's row, so the tiles of the result are the tiles of one whole-array function; and the first
  two columns of the widened product read only original columns.  The aggregation over the edges is the same host
  computation in both programs and is carried whole.  Both programs therefore end with the same function of the ten
  arguments (`RefValue.spec`), with no use of the inputs' finiteness: no sum is split and no factor moved.

  The three frame claims are the generated frame certificates (the reference's is its generated run with the result
  dropped); the idealization rewrote nothing, so `preserves` is trivial; `algebraic` joins the kernel's run with its
  result buffer read (`KernelRun`, `KernelValue`) to the reference's generated run read stage by stage (`RefValue`).
-/
import proofs.«168716_j1812476199284_2_alg».proof.Defs
import proofs.«168716_j1812476199284_2_alg».proof.Proof.Gen.Kernel
import proofs.«168716_j1812476199284_2_alg».proof.Proof.Gen.Kernel.Skeleton
import proofs.«168716_j1812476199284_2_alg».proof.Proof.Gen.Kernel.Launch
import proofs.«168716_j1812476199284_2_alg».proof.Proof.Gen.Kernel.Points
import proofs.«168716_j1812476199284_2_alg».proof.Proof.Gen.Kernel.Frame
import proofs.«168716_j1812476199284_2_alg».proof.Proof.Gen.KernelIdeal
import proofs.«168716_j1812476199284_2_alg».proof.Proof.Gen.KernelIdeal.Skeleton
import proofs.«168716_j1812476199284_2_alg».proof.Proof.Gen.KernelIdeal.Launch
import proofs.«168716_j1812476199284_2_alg».proof.Proof.Gen.KernelIdeal.Points
import proofs.«168716_j1812476199284_2_alg».proof.Proof.Gen.KernelIdeal.Frame
import proofs.«168716_j1812476199284_2_alg».proof.Proof.Gen.ReferenceIdeal
import proofs.«168716_j1812476199284_2_alg».proof.Proof.Gen.ReferenceIdeal.Run
import proofs.«168716_j1812476199284_2_alg».proof.Proof.Gen.ReferenceIdeal.Read
import proofs.«168716_j1812476199284_2_alg».proof.Proof.Gen.Pre_finite_inputs
import proofs.«168716_j1812476199284_2_alg».proof.Proof.KernelRun
import proofs.«168716_j1812476199284_2_alg».proof.Proof.KernelValue
import proofs.«168716_j1812476199284_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, from memories agreeing on the arguments, end with the result at the same function of the
    arguments: the kernel's result buffer read back through its two pallas_calls, the reference's run read stage by
    stage. -/
theorem algebraic : Cert.algebraic_KernelIdeal_ReferenceIdeal := by
  intro m ρ m' ρ' _ hagree
  refine ⟨fun c => Cert.ReferenceIdeal.RefValue.spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Result.result m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v44_eq, Cert.ReferenceIdeal.RefValue.spec_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
